-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x128 .f32) (main_arg1 : FVec F S128x256 .f32) (main_arg2 : FVec F S256 .f32) (main_arg3 : FVec F S256x256 .f32) (main_arg4 : FVec F S256 .f32) (main_arg5 : FVec F S256x256 .f32) (main_arg6 : FVec F S256 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩

abbrev nBuf : Space → Nat
  | .hbm => 61
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000x1, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x1, .f32⟩
  | .hbm, ⟨55, _⟩ => ⟨S50000x128, .f32⟩
  | .hbm, ⟨56, _⟩ => ⟨S50000x128, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S5000x256_S5000x256_0_0 : ∀ a, (![0, 0] : Fin 2 → Nat) a + S5000x256.size a ≤ S5000x256.size a
  h_S5000x256 : 0 < S5000x256.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x256.size a ≤ S50000x256.size a
  hwx0_7 : ∀ i : grid0.Coords, EltTy.bits .f32 = 32 ∨ (Rect.block (s := S50000x256) S5000x256.size (cc0_transform_7 i) (hinb0_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S5000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S_, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S_, .f32⟩
  | .hbm, ⟨84, _⟩ => ⟨S50000x256, .f32⟩
  | .hbm, ⟨85, _⟩ => ⟨S50000x256, .f32⟩
  | .hbm, ⟨86, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v41 : Ref sig .tc := ⟨.hbm, 86, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibBroadcastInDim.lean ====
/-
  `broadcast_in_dim` read at an index, for the layouts a host program meets when it spreads a per-row or per-column
  quantity over a matrix: a scalar splat to any shape; a vector `[a]` laid out as the column `[a, 1]` or `[b]` as the
  row `[1, b]`; the column and the row spread to `[a, b]`; a vector `[c]` laid out as `[1, 1, c]` and spread to
  `[a, b, c]`. General in the extents and in the element type: each result entry reads the one operand entry that
  shares its coordinates on the axes the operand keeps.
-/
import Idealize.ShloMosaic.Lib.Pipeline.Value
import Idealize.ShloMosaic.Lib.ValueIdx

namespace Idealize.ShloMosaic.ValueIdx

variable {α : Type}

/-- A scalar splat reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector `[a]` as the column `[a, 1]`: entry `(i, u)` is the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column `[a, 1]` spread to `[a, b]`: entry `(p, c)` is the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[b]` as the row `[1, b]`: entry `(u, c)` is the vector's entry `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x _ (ix1 c) fun ax => ?_
  match ax with
  | ⟨0, _⟩ =>
    show c.val = if b = 1 then 0 else c.val
    split
    · have := c.isLt; omega
    · rfl

/-- A row `[1, b]` spread to `[a, b]`: entry `(p, c)` is the row's entry `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x _ (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A vector `[c]` as `[1, 1, c]`: entry `(u, v, k)` is the vector's entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ ![2] h x (ix3 u v k) = x (ix1 k) := by
  refine broadcastInDim_apply _ h x _ (ix1 k) fun ax => ?_
  match ax with
  | ⟨0, _⟩ =>
    show k.val = if c = 1 then 0 else k.val
    split
    · have := k.isLt; omega
    · rfl

/-- `[1, 1, c]` spread to `[a, b, c]`: entry `(p, q, k)` is the operand's entry `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (k : Fin c) :
    broadcastInDim ⟨3, ![a, b, c]⟩ ![0, 1, 2] h x (ix3 p q k) = x (ix3 (0 : Fin 1) (0 : Fin 1) k) := by
  refine broadcastInDim_apply _ h x _ (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Idealize.ShloMosaic.ValueIdx
-- ==== Proof.LibSiluDense.lean ====
/-
  A dense layer followed by SiLU, read at an entry.

  One output unit of such a layer takes a row `x` of `K` inputs, a column `w` of `K` weights and a bias `b`, forms
  `z = ∑ₖ x k · w k + b` and returns `silu z = z · σ(z)`, with `σ(z) = 1 / (1 + e^(−z))` the logistic function on the
  extended reals. A layer `[M, K] → [M, N]` is this unit at every (row, column): entry `(p, q)` depends on row `p` of
  the input, column `q` of the weights and entry `q` of the bias, and on nothing else.

  Two spellings of the layer compute that unit at the ideal values:
  * a kernel's — a matrix product into a zero accumulator, a one-row bias `[1, N]` broadcast over the rows, the
    logistic function as one operation, a product;
  * a host program's — `dot_general`, the bias `[N]` laid out as `[1, N]` and spread to `[M, N]`, and the logistic
    function written out as `1 / (1 + exp (−z))` over splats of the constant one.
  They agree because the logistic function IS that quotient on the extended reals, and the literal `0x3F800000` is one.
  General in the three extents.
-/
import Idealize.ShloMosaic.PureOps.Ideal.Laws
import Idealize.ShloMosaic.Lib.ValueIdx
import Idealize.ShloMosaic.Lib.ValueLayout
import Idealize.ShloMosaic.Lib.Pipeline.Value
import proofs.«142250_j11940009083129_2_alg».proof.Proof.LibPlainDot
import proofs.«142250_j11940009083129_2_alg».proof.Proof.LibBroadcastInDim

noncomputable section

namespace SiluDense

open Idealize.ShloMosaic Idealize.ShloMosaic.ValueIdx

/-- `silu z = z · σ(z)` on the extended reals. -/
def silu (z : EReal) : EReal := z * Ideal.logistic z

/-- One output unit: the inputs against the weights, plus the bias, through SiLU. -/
def unit {K : ℕ} (x w : Fin K → EReal) (b : EReal) : EReal := silu ((∑ k : Fin K, x k * w k) + b)

/-- The single-precision literal `0x3F800000` is the number one. -/
theorem one_f32 : Ideal.ofBits .f32 0x3F800000#32 = 1 := by
  simp [Ideal.ofBits, Ideal.ieee, -EReal.coe_mul]; norm_num

/-- The logistic function written out over the literal one is the logistic function. -/
theorem silu_written_out (z : EReal) :
    z * Ideal.div (Ideal.ofBits .f32 0x3F800000#32) (Ideal.ofBits .f32 0x3F800000#32 + Ideal.exp (-z)) = silu z := by
  rw [one_f32]; rfl

variable {M K N : ℕ}

/-! ## The kernel's spelling -/

/-- A kernel's layer: product into the zero accumulator, one-row bias over the rows, logistic, product. -/
def kernelLayer (d : DotDims ⟨2, ![M, K]⟩ ⟨2, ![K, N]⟩ ⟨2, ![M, N]⟩) (prec : Option ContractPrecision)
    (hc : (⟨2, ![1, N]⟩ : Shape).ShapeCasts ⟨2, ![1, N]⟩) (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32) :
    FVec Ideal ⟨2, ![M, N]⟩ .f32 :=
  mulf (addf (matmul d prec x w (constant ⟨2, ![M, N]⟩ .f32 0x00000000#32)) (broadcastTo ⟨2, ![M, N]⟩ (shapeCast ⟨2, ![1, N]⟩ b hc) hb))
    (logistic (addf (matmul d prec x w (constant ⟨2, ![M, N]⟩ .f32 0x00000000#32)) (broadcastTo ⟨2, ![M, N]⟩ (shapeCast ⟨2, ![1, N]⟩ b hc) hb)))

/-- Entry `(p, q)` of the kernel's layer is the unit of input row `p`, weight column `q` and bias entry `q`. -/
theorem kernelLayer_apply (d : DotDims ⟨2, ![M, K]⟩ ⟨2, ![K, N]⟩ ⟨2, ![M, N]⟩) (hd : d = DotDims.plain M K N)
    (prec : Option ContractPrecision)
    (hc : (⟨2, ![1, N]⟩ : Shape).ShapeCasts ⟨2, ![1, N]⟩) (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (p : Fin M) (q : Fin N) :
    kernelLayer d prec hc hb x w b (ix2 p q)
      = unit (fun k => x (ix2 p k)) (fun k => w (ix2 k q)) (b (ix2 (0 : Fin 1) q)) := by
  have hz : addf (matmul d prec x w (constant ⟨2, ![M, N]⟩ .f32 0x00000000#32))
        (broadcastTo ⟨2, ![M, N]⟩ (shapeCast ⟨2, ![1, N]⟩ b hc) hb) (ix2 p q)
      = (∑ k : Fin K, x (ix2 p k) * w (ix2 k q)) + b (ix2 (0 : Fin 1) q) := by
    rw [addf_apply, broadcastTo_1b_ab_apply, shapeCast_self]
    exact congrArg (· + b (ix2 (0 : Fin 1) q)) (matmul_plain_zero_apply d hd prec x w p q)
  have key : ∀ Z : FVec Ideal ⟨2, ![M, N]⟩ .f32, mulf Z (logistic Z) (ix2 p q) = silu (Z (ix2 p q)) := fun _ => rfl
  exact (key _).trans (congrArg silu hz)

/-! ## The host's spelling -/

/-- A host program's layer: `dot_general`, the bias laid out as a row and spread, the logistic function written out. -/
def hostLayer (d : DotDims ⟨2, ![M, K]⟩ ⟨2, ![K, N]⟩ ⟨2, ![M, N]⟩) (prec : Option ContractPrecision)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (x : FVec Ideal ⟨2, ![M, K]⟩ .f32) (w : FVec Ideal ⟨2, ![K, N]⟩ .f32) (b : FVec Ideal ⟨1, ![N]⟩ .f32) :
    FVec Ideal ⟨2, ![M, N]⟩ .f32 :=
  mulf (addf (Host.dotGeneral d prec x w) (broadcastInDim ⟨2, ![M, N]⟩ ![0, 1] h2 (broadcastInDim ⟨2, ![1, N]⟩ ![1] h1 b)))
    (Host.divf (broadcastInDim ⟨2, ![M, N]⟩ ![] h0 (constant (F := Ideal) ⟨0, ![]⟩ .f32 0x3F800000#32))
      (addf (broadcastInDim ⟨2, ![M, N]⟩ ![] h0 (constant (F := Ideal) ⟨0, ![]⟩ .f32 0x3F800000#32))
        (Host.exp (Host.negf (addf (Host.dotGeneral d prec x w)
          (broadcastInDim ⟨2, ![M, N]⟩ ![0, 1] h2 (broadcastInDim ⟨2, ![1, N]⟩ ![1] h1 b)))))))

/-- Entry `(p, q)` of the host's layer is the same unit, the bias read at `q`. -/
theorem hostLayer_apply (d : DotDims ⟨2, ![M, K]⟩ ⟨2, ![K, N]⟩ ⟨2, ![M, N]⟩) (hd : d = DotDims.plain M K N)
    (prec : Option ContractPrecision)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (x : FVec Ideal ⟨2, ![M, K]⟩ .f32) (w : FVec Ideal ⟨2, ![K, N]⟩ .f32) (b : FVec Ideal ⟨1, ![N]⟩ .f32)
    (p : Fin M) (q : Fin N) :
    hostLayer d prec h1 h2 h0 x w b (ix2 p q)
      = unit (fun k => x (ix2 p k)) (fun k => w (ix2 k q)) (b (ix1 q)) := by
  have hz : addf (Host.dotGeneral d prec x w)
        (broadcastInDim ⟨2, ![M, N]⟩ ![0, 1] h2 (broadcastInDim ⟨2, ![1, N]⟩ ![1] h1 b)) (ix2 p q)
      = (∑ k : Fin K, x (ix2 p k) * w (ix2 k q)) + b (ix1 q) := by
    rw [addf_apply, broadcastInDim_1b_ab_apply, broadcastInDim_b_1b_apply]
    exact congrArg (· + b (ix1 q)) (dotGeneral_plain_apply d hd prec .single x w p q)
  have key : ∀ Z : FVec Ideal ⟨2, ![M, N]⟩ .f32,
      mulf Z (Host.divf (broadcastInDim ⟨2, ![M, N]⟩ ![] h0 (constant (F := Ideal) ⟨0, ![]⟩ .f32 0x3F800000#32))
        (addf (broadcastInDim ⟨2, ![M, N]⟩ ![] h0 (constant (F := Ideal) ⟨0, ![]⟩ .f32 0x3F800000#32))
          (Host.exp (Host.negf Z)))) (ix2 p q) = silu (Z (ix2 p q)) := fun Z => silu_written_out (Z (ix2 p q))
  exact (key _).trans (congrArg silu hz)

end SiluDense

end
-- ==== Proof.Spec.lean ====
/-
  The dense stack of this kernel, as one function of its operands.

  For one input row `x` of 128 numbers, three layers are applied in turn: 128 → 256 with weights `Wc` and bias `bc`,
  256 → 256 with `W1`, `b1`, and 256 → 256 with `W2`, `b2`; each layer's output unit is the weighted sum plus the bias passed
  through SiLU. Output unit `q` of the stack is a function of the one input row and of the weights and biases only.
  An array of `M` rows goes through the stack row by row, so entry `(p, q)` of the result reads row `p` of the
  input and nothing else of it: this is what makes a row-tiled computation of the stack equal to the stack of the
  whole array.
-/
import proofs.«142250_j11940009083129_2_alg».proof.Proof.LibSiluDense

noncomputable section

namespace Mlp

open Idealize.ShloMosaic Idealize.ShloMosaic.ValueIdx SiluDense

/-- Output unit `q` of the three layers applied to the input row `x`. -/
def mlp3 (x : Fin 128 → EReal) (Wc : (⟨2, ![128, 256]⟩ : Shape).Idx → EReal) (bc : Fin 256 → EReal)
    (W1 : (⟨2, ![256, 256]⟩ : Shape).Idx → EReal) (b1 : Fin 256 → EReal)
    (W2 : (⟨2, ![256, 256]⟩ : Shape).Idx → EReal) (b2 : Fin 256 → EReal) (q : Fin 256) : EReal :=
  unit (fun k => unit (fun j => unit x (fun l => Wc (ix2 l j)) (bc j)) (fun j => W1 (ix2 j k)) (b1 k))
    (fun k => W2 (ix2 k q)) (b2 q)

/-- Equal operands give equal outputs (the form in which two readings of the same operands are joined). -/
theorem mlp3_congr {x x' : Fin 128 → EReal} {Wc Wc' : (⟨2, ![128, 256]⟩ : Shape).Idx → EReal} {bc bc' : Fin 256 → EReal}
    {W1 W1' : (⟨2, ![256, 256]⟩ : Shape).Idx → EReal} {b1 b1' : Fin 256 → EReal}
    {W2 W2' : (⟨2, ![256, 256]⟩ : Shape).Idx → EReal} {b2 b2' : Fin 256 → EReal} {q q' : Fin 256}
    (hx : x = x') (hWc : Wc = Wc') (hbc : bc = bc') (hW1 : W1 = W1') (hb1 : b1 = b1') (hW2 : W2 = W2') (hb2 : b2 = b2')
    (hq : q = q') : mlp3 x Wc bc W1 b1 W2 b2 q = mlp3 x' Wc' bc' W1' b1' W2' b2' q' := by
  subst hx hWc hbc hW1 hb1 hW2 hb2 hq; rfl

/-- The stack applied to every row of an `[M, 128]` array. -/
def rows {M : ℕ} (a : (⟨2, ![M, 128]⟩ : Shape).Idx → EReal) (Wc : (⟨2, ![128, 256]⟩ : Shape).Idx → EReal) (bc : Fin 256 → EReal)
    (W1 : (⟨2, ![256, 256]⟩ : Shape).Idx → EReal) (b1 : Fin 256 → EReal)
    (W2 : (⟨2, ![256, 256]⟩ : Shape).Idx → EReal) (b2 : Fin 256 → EReal) : (⟨2, ![M, 256]⟩ : Shape).Idx → EReal :=
  fun i => mlp3 (fun l => a (ix2 (⟨(i 0).val, idx2_lt0 i⟩ : Fin M) l)) Wc bc W1 b1 W2 b2 ⟨(i 1).val, idx2_lt1 i⟩

/-- Entry `(p, q)` is output unit `q` of the stack on row `p`. -/
theorem rows_apply {M : ℕ} (a : (⟨2, ![M, 128]⟩ : Shape).Idx → EReal) (Wc : (⟨2, ![128, 256]⟩ : Shape).Idx → EReal)
    (bc : Fin 256 → EReal) (W1 : (⟨2, ![256, 256]⟩ : Shape).Idx → EReal) (b1 : Fin 256 → EReal)
    (W2 : (⟨2, ![256, 256]⟩ : Shape).Idx → EReal) (b2 : Fin 256 → EReal) (p : Fin M) (q : Fin 256) :
    rows a Wc bc W1 b1 W2 b2 (ix2 p q) = mlp3 (fun l => a (ix2 p l)) Wc bc W1 b1 W2 b2 q := rfl

/-- Two readings of the stack agree at two indices when the input rows read there agree entry by entry, the weights
    and biases are equal, and the two indices name the same output unit. -/
theorem rows_congr {M M' : ℕ} {a : (⟨2, ![M, 128]⟩ : Shape).Idx → EReal} {a' : (⟨2, ![M', 128]⟩ : Shape).Idx → EReal}
    {Wc Wc' : (⟨2, ![128, 256]⟩ : Shape).Idx → EReal} {bc bc' : Fin 256 → EReal}
    {W1 W1' : (⟨2, ![256, 256]⟩ : Shape).Idx → EReal} {b1 b1' : Fin 256 → EReal}
    {W2 W2' : (⟨2, ![256, 256]⟩ : Shape).Idx → EReal} {b2 b2' : Fin 256 → EReal}
    (i : (⟨2, ![M, 256]⟩ : Shape).Idx) (i' : (⟨2, ![M', 256]⟩ : Shape).Idx)
    (hrow : ∀ l : Fin 128, a (ix2 (⟨(i 0).val, idx2_lt0 i⟩ : Fin M) l) = a' (ix2 (⟨(i' 0).val, idx2_lt0 i'⟩ : Fin M') l))
    (hWc : Wc = Wc') (hbc : bc = bc') (hW1 : W1 = W1') (hb1 : b1 = b1') (hW2 : W2 = W2') (hb2 : b2 = b2')
    (hq : (i 1).val = (i' 1).val) :
    rows a Wc bc W1 b1 W2 b2 i = rows a' Wc' bc' W1' b1' W2' b2' i' :=
  mlp3_congr (funext hrow) hWc hbc hW1 hb1 hW2 hb2 (Fin.ext hq)

end Mlp

end
-- ==== Proof.KernelBody.lean ====
/-
  What the kernel body stores, as the dense stack on the rows of its input block.

  The body loads a block of 5000 rows of the aggregated features, the three weight matrices and the three one-row
  biases, and stores one value: three times over, a matrix product into a zero accumulator, the bias row broadcast
  over the rows, and `z · σ(z)`. Each of the three steps is a dense layer with SiLU in the kernel's spelling, so entry
  `(p, q)` of the stored block is output unit `q` of the stack on row `p` of the loaded block.
-/
import proofs.«142250_j11940009083129_2_alg».proof.Proof.Gen.KernelIdeal.Skeleton
import proofs.«142250_j11940009083129_2_alg».proof.Proof.Spec

noncomputable section

namespace Cert.KernelIdeal.Hand

open Cert.KernelIdeal Cert.KernelIdeal.Gen Idealize.ShloMosaic Idealize.ShloMosaic.ValueIdx SiluDense Mlp

/-- The stored value is the stack applied to the rows of the loaded block, the biases read off their one row. -/
theorem pay_eq (x0 : FVec Ideal S5000x128 .f32) (x1 : FVec Ideal S128x256 .f32) (x2 : FVec Ideal S1x256 .f32)
    (x3 : FVec Ideal S256x256 .f32) (x4 : FVec Ideal S1x256 .f32) (x5 : FVec Ideal S256x256 .f32)
    (x6 : FVec Ideal S1x256 .f32) :
    k0_pay1 (F := Ideal) x0 x1 x2 x3 x4 x5 x6
      = rows (M := 5000) x0 x1 (fun j => x2 (ix2 (0 : Fin 1) j)) x3 (fun j => x4 (ix2 (0 : Fin 1) j)) x5
          (fun j => x6 (ix2 (0 : Fin 1) j)) := by
  have e : k0_pay1 (F := Ideal) x0 x1 x2 x3 x4 x5 x6
      = kernelLayer dot_S5000x256_S256x256_S5000x256_1_0_0_1_n_n (some .fp32) shapeCasts_S1x256_S1x256 broadcasts_S1x256_S5000x256
          (kernelLayer dot_S5000x256_S256x256_S5000x256_1_0_0_1_n_n (some .fp32) shapeCasts_S1x256_S1x256 broadcasts_S1x256_S5000x256
            (kernelLayer dot_S5000x128_S128x256_S5000x256_1_0_0_1_n_n (some .fp32) shapeCasts_S1x256_S1x256 broadcasts_S1x256_S5000x256
              (shapeCast S5000x128 x0 shapeCasts_S5000x128_S5000x128) x1 x2) x3 x4) x5 x6 := rfl
  rw [e]
  funext j
  obtain ⟨p, q, rfl⟩ : ∃ (p : Fin 5000) (q : Fin 256), j = ix2 p q := ⟨j 0, j 1, eq_ix2 j⟩
  rw [rows_apply, kernelLayer_apply dot_S5000x256_S256x256_S5000x256_1_0_0_1_n_n rfl]
  unfold mlp3
  refine congrArg (fun f => unit f _ _) (funext fun k => ?_)
  rw [kernelLayer_apply dot_S5000x256_S256x256_S5000x256_1_0_0_1_n_n rfl]
  refine congrArg (fun f => unit f _ _) (funext fun i => ?_)
  rw [kernelLayer_apply dot_S5000x128_S128x256_S5000x256_1_0_0_1_n_n rfl, shapeCast_self]

end Cert.KernelIdeal.Hand

end
-- ==== Proof.KernelBlocks.lean ====
/-
  The kernel's blocks, read off arbitrary arrays.

  The grid has ten points. At point `t` the input window's block is rows `5000·t … 5000·t + 4999` of its array; the
  six weight and bias windows' blocks are their whole arrays at every point; the output window's block is rows
  `5000·t … 5000·t + 4999` of the result. The body stores, into the output block, the dense stack of the loaded rows.
  Since output unit `(p, q)` of the stack reads only row `p` of its input, what point `t` stores is block `t` of the
  stack applied to the WHOLE input array — for any contents of the seven arrays. The ten output blocks tile the
  50000 rows: row `r` lies in block `r / 5000`.
-/
import proofs.«142250_j11940009083129_2_alg».proof.Proof.Gen.KernelIdeal.Frame
import proofs.«142250_j11940009083129_2_alg».proof.Proof.KernelBody
import Idealize.ShloMosaic.Lib.Pipeline.Value

noncomputable section

open Idealize.ShloMosaic Idealize.ShloMosaic.TcCoe Idealize.SL.Sem

namespace Cert.KernelIdeal.Hand

open Cert.KernelIdeal Cert.KernelIdeal.Gen Idealize.ShloMosaic.ValueIdx Mlp

theorem hz : (![0, 0] : Fin 2 → Nat) = fun _ => 0 := funext fun a => by fin_cases a <;> rfl

/-- The printed index maps over the ten grid points: the input and the output move down one block of rows per
    point; the weights and biases stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The result as one function of the seven arrays the windows read: the dense stack, row by row, of the first
    against the weights and the one-row biases. -/
def outOf (A0 : S50000x128.Idx → EReal) (A1 : S128x256.Idx → EReal) (A2 : S1x256.Idx → EReal)
    (A3 : S256x256.Idx → EReal) (A4 : S1x256.Idx → EReal) (A5 : S256x256.Idx → EReal) (A6 : S1x256.Idx → EReal) :
    S50000x256.Idx → EReal :=
  rows (M := 50000) A0 A1 (fun j => A2 (ix2 (0 : Fin 1) j)) A3 (fun j => A4 (ix2 (0 : Fin 1) j)) A5
    (fun j => A6 (ix2 (0 : Fin 1) j))

/-- The input window's block at point `t` is rows `5000·t …` of its array. -/
theorem blk0_read (t : Fin cfg0.N) (A : S50000x128.Idx → EReal) (x : S5000x128.Idx) (k : S50000x128.Idx)
    (hk0 : (k 0).val = 5000 * t.val + (x 0).val) (hk1 : (k 1).val = (x 1).val) :
    ((cfg0.win 0).blk t).view.read (Elt Ideal) A x = A k := by
  obtain ⟨e0, e1, -⟩ := idx_facts t
  rw [View.read_apply]
  show A _ = A k
  refine congrArg A ?_
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The first weight window's block is its whole array at every point. -/
theorem blk1_read (t : Fin cfg0.N) (A : S128x256.Idx → EReal) : ((cfg0.win 1).blk t).view.read (Elt Ideal) A = A := by
  obtain ⟨-, -, e0, e1, -⟩ := idx_facts t
  funext x
  rw [View.read_apply]
  show A _ = A x
  refine congrArg A ?_
  funext a
  apply Fin.ext
  match a with
  | ⟨0, _⟩ => show win0_1.index t (0 : Fin 2) * 128 + 1 * (x 0).val = (x 0).val; rw [e0]; omega
  | ⟨1, _⟩ => show win0_1.index t (1 : Fin 2) * 256 + 1 * (x 1).val = (x 1).val; rw [e1]; omega

/-- The first bias window's block is its whole one-row array at every point. -/
theorem blk2_read (t : Fin cfg0.N) (A : S1x256.Idx → EReal) : ((cfg0.win 2).blk t).view.read (Elt Ideal) A = A := by
  obtain ⟨-, -, -, -, e0, e1, -⟩ := idx_facts t
  funext x
  rw [View.read_apply]
  show A _ = A x
  refine congrArg A ?_
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The second weight window's block is its whole array at every point. -/
theorem blk3_read (t : Fin cfg0.N) (A : S256x256.Idx → EReal) : ((cfg0.win 3).blk t).view.read (Elt Ideal) A = A := by
  obtain ⟨-, -, -, -, -, -, e0, e1, -⟩ := idx_facts t
  funext x
  rw [View.read_apply]
  show A _ = A x
  refine congrArg A ?_
  funext a
  apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- The second bias window's block is its whole one-row array at every point. -/
theorem blk4_read (t : Fin cfg0.N) (A : S1x256.Idx → EReal) : ((cfg0.win 4).blk t).view.read (Elt Ideal) A = A := by
  obtain ⟨-, -, -, -, -, -, -, -, e0, e1, -⟩ := idx_facts t
  funext x
  rw [View.read_apply]
  show A _ = A x
  refine congrArg A ?_
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-- The third weight window's block is its whole array at every point. -/
theorem blk5_read (t : Fin cfg0.N) (A : S256x256.Idx → EReal) : ((cfg0.win 5).blk t).view.read (Elt Ideal) A = A := by
  obtain ⟨-, -, -, -, -, -, -, -, -, -, e0, e1, -⟩ := idx_facts t
  funext x
  rw [View.read_apply]
  show A _ = A x
  refine congrArg A ?_
  funext a
  apply Fin.ext
  match a with
  | ⟨0, _⟩ => show win0_5.index t (0 : Fin 2) * 256 + 1 * (x 0).val = (x 0).val; rw [e0]; omega
  | ⟨1, _⟩ => show win0_5.index t (1 : Fin 2) * 256 + 1 * (x 1).val = (x 1).val; rw [e1]; omega

/-- The third bias window's block is its whole one-row array at every point. -/
theorem blk6_read (t : Fin cfg0.N) (A : S1x256.Idx → EReal) : ((cfg0.win 6).blk t).view.read (Elt Ideal) A = A := by
  obtain ⟨-, -, -, -, -, -, -, -, -, -, -, -, e0, e1, -⟩ := idx_facts t
  funext x
  rw [View.read_apply]
  show A _ = A x
  refine congrArg A ?_
  funext a
  apply Fin.ext
  match a with
  | ⟨0, _⟩ => show win0_6.index t (0 : Fin 2) * 1 + 1 * (x 0).val = (x 0).val; rw [e0]; omega
  | ⟨1, _⟩ => show win0_6.index t (1 : Fin 2) * 256 + 1 * (x 1).val = (x 1).val; rw [e1]; omega

/-- WHAT POINT `t` STORES is block `t` of the stack applied to the whole arrays: a row of the input block is a row of
    the input array, and an output unit of the stack reads that row alone. -/
theorem blockwise (t : Fin cfg0.N) (A0 : S50000x128.Idx → EReal) (A1 : S128x256.Idx → EReal) (A2 : S1x256.Idx → EReal)
    (A3 : S256x256.Idx → EReal) (A4 : S1x256.Idx → EReal) (A5 : S256x256.Idx → EReal) (A6 : S1x256.Idx → EReal) :
    (cfg0.win 7).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6))
      = ((cfg0.win 7).blk t).view.read (Elt Ideal) (outOf A0 A1 A2 A3 A4 A5 A6) := by
  rw [blk1_read, blk2_read, blk3_read, blk4_read, blk5_read, blk6_read, pay_eq]
  obtain ⟨-, -, -, -, -, -, -, -, -, -, -, -, -, -, e0, e1⟩ := idx_facts t
  funext j
  rw [View.read_apply]
  have hi0 : ((((cfg0.win 7).blk t).view.emb j) 0).val = 5000 * t.val + (j 0).val := by
    show win0_7.index t (0 : Fin 2) * 5000 + 1 * (j 0).val = _; rw [e0]; omega
  have hi1 : ((((cfg0.win 7).blk t).view.emb j) 1).val = (j 1).val := by
    show win0_7.index t (1 : Fin 2) * 256 + 1 * (j 1).val = _; rw [e1]; omega
  exact rows_congr ((cfg0.win 7).xinj (grid0.coords t) j) (((cfg0.win 7).blk t).view.emb j)
    (fun l => blk0_read t A0 _ _ hi0 rfl) rfl rfl rfl rfl rfl rfl hi1.symm

/-- An index of the result is in point `t`'s block iff each coordinate is in the block's range on its axis. -/
theorem mem_blk (t : Fin cfg0.N) (i : S50000x256.Idx) :
    i ∈ ((cfg0.win 7).blk t).view.set ↔ ∀ a : Fin 2, win0_7.index t a * S5000x256.size a ≤ (i a).val
      ∧ (i a).val < win0_7.index t a * S5000x256.size a + S5000x256.size a := by
  show i ∈ ((View.whole main_v37).slice (win0_7.rect t)).set ↔ _
  rw [View.set_slice_whole, Rect.mem_set_unit]
  exact Iff.rfl

/-- The ten blocks cover the result: row `r` lies in the block of point `r / 5000`. -/
theorem cover (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 10 := N_0
  have ht : (i 0).val / 5000 < cfg0.N := by rw [hN]; omega
  obtain ⟨-, -, -, -, -, -, -, -, -, -, -, -, -, -, e0, e1⟩ := idx_facts ⟨(i 0).val / 5000, ht⟩
  refine ⟨⟨(i 0).val / 5000, ht⟩, flush0_7 _, ?_⟩
  rw [mem_blk]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ (1 : Fin 2) * 256 ≤ (i 1).val
      ∧ (i 1).val < win0_7.index ⟨(i 0).val / 5000, ht⟩ (1 : Fin 2) * 256 + 256
    rw [e1]; omega

end Cert.KernelIdeal.Hand

end
-- ==== Proof.KernelValue.lean ====
/-
  The kernel's result array, as the dense stack of the arrays the region finds.

  What each grid point writes back is, whatever the seven arrays hold, block `t` of the dense stack applied to the
  whole arrays; the ten blocks tile the result. So after the run the result array is that one function of the
  arrays as the region finds them, and the argument arrays are unchanged.
-/
import proofs.«142250_j11940009083129_2_alg».proof.Proof.Gen.KernelIdeal.Value
import proofs.«142250_j11940009083129_2_alg».proof.Proof.KernelBlocks
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Mlp

variable (m : (ℓ : Loc nD τ sig) → Buf (Elt Ideal) ℓ) (ρ : Dev nD → PrngReg)

/-- The result array as a function of the arrays the region finds. -/
def outArr (c : Dev nD) : S50000x256.Idx → EReal :=
  outOf (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6))

/-- WHAT POINT `t` WRITES BACK is block `t` of the result function. -/
theorem flushed_eq (c : Dev nD) (t : Fin cfg0.N) :
    (dats m 0 c).flushed 7 t = ((cfg0.win 7).blk t).view.read (Elt Ideal) (outArr m c) := by
  rw [flushed7]
  unfold out0_7
  rw [View.canon_unit_zero hz]
  simp only [View.ld_unit_zero (S := S5000x128) hz, View.ld_unit_zero (S := S128x256) hz,
    View.ld_unit_zero (S := S1x256) hz, View.ld_unit_zero (S := S256x256) hz]
  exact blockwise t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6))

/-- After the run the result array is the dense stack of the arrays the region finds. -/
theorem final (c : Dev nD) : (dats m 0 c).arrAt 7 cfg0.N = outArr m c :=
  (dats m 0 c).arrAt_eq_of_cover 7 (outArr m c) (fun t _ => flushed_eq m c t) cover

/-- The kernel's run, read: the result array at the dense stack, the arguments unchanged. -/
theorem run : θ_run defs (onTc (τ := τ) (main (F := Ideal))) ⟨m, fun _ => 0, ρ⟩ fun r => ∀ c : Dev nD,
      r.2.mem ((c : Thread nD τ).loc main_v37) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Hand

end
-- ==== Proof.RefValue.lean ====
/-
  The reference's result, as the dense stack of its aggregated features.

  After the message-passing stage the reference applies, three times, `silu (h @ W + b)`: a `dot_general`, the bias laid
  out as a row and spread over the rows, and `z · (1 / (1 + exp (−z)))` written out over splats of the constant one.
  Each of the three is a dense layer with SiLU in the host's spelling, so entry `(p, q)` of the result is output unit
  `q` of the stack on row `p` of the aggregated features.
-/
import proofs.«142250_j11940009083129_2_alg».proof.Proof.Gen.ReferenceIdeal.Read
import proofs.«142250_j11940009083129_2_alg».proof.Proof.Spec

noncomputable section

namespace Cert.ReferenceIdeal.Hand

open Cert.ReferenceIdeal Cert.ReferenceIdeal.Gen Cert.ReferenceIdeal.Read
open Idealize.ShloMosaic Idealize.ShloMosaic.ValueIdx SiluDense Mlp

variable (x0 : (⟨S50000x128, .f32⟩ : BufTy).Contents (Elt Ideal)) (x1 : (⟨S128x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 x8 : (⟨S800000, .i32⟩ : BufTy).Contents (Elt Ideal))

/-- The first activation is a host layer on the aggregated features. -/
theorem layer1 : val_main_v31 (F := Ideal) x0 x1 x2 x7 x8
    = hostLayer dot_S50000x128_S128x256_S50000x256_1_0_0_1_n_n none bcast_S256_S1x256_1 bcast_S1x256_S50000x256_0_1
        bcast_S_S50000x256 (val_main_v26 (F := Ideal) x0 x7 x8) x1 x2 := rfl

/-- The second activation is a host layer on the first. -/
theorem layer2 : val_main_v36 (F := Ideal) x0 x1 x2 x3 x4 x7 x8
    = hostLayer dot_S50000x256_S256x256_S50000x256_1_0_0_1_n_n none bcast_S256_S1x256_1 bcast_S1x256_S50000x256_0_1
        bcast_S_S50000x256 (val_main_v31 (F := Ideal) x0 x1 x2 x7 x8) x3 x4 := rfl

/-- The result is a host layer on the second. -/
theorem layer3 : val_main_v41 (F := Ideal) x0 x1 x2 x3 x4 x5 x6 x7 x8
    = hostLayer dot_S50000x256_S256x256_S50000x256_1_0_0_1_n_n none bcast_S256_S1x256_1 bcast_S1x256_S50000x256_0_1
        bcast_S_S50000x256 (val_main_v36 (F := Ideal) x0 x1 x2 x3 x4 x7 x8) x5 x6 := rfl

/-- The reference's result is the stack applied to the rows of its aggregated features. -/
theorem result_eq : val_main_v41 (F := Ideal) x0 x1 x2 x3 x4 x5 x6 x7 x8
    = rows (M := 50000) (val_main_v26 (F := Ideal) x0 x7 x8) x1 (fun j => x2 (ix1 j)) x3 (fun j => x4 (ix1 j)) x5
        (fun j => x6 (ix1 j)) := by
  funext i
  obtain ⟨p, q, rfl⟩ : ∃ (p : Fin 50000) (q : Fin 256), i = ix2 p q := ⟨i 0, i 1, eq_ix2 i⟩
  rw [rows_apply, layer3, hostLayer_apply dot_S50000x256_S256x256_S50000x256_1_0_0_1_n_n rfl]
  unfold mlp3
  refine congrArg (fun f => unit f _ _) (funext fun k => ?_)
  rw [layer2, hostLayer_apply dot_S50000x256_S256x256_S50000x256_1_0_0_1_n_n rfl]
  refine congrArg (fun f => unit f _ _) (funext fun j => ?_)
  rw [layer1, hostLayer_apply dot_S50000x128_S128x256_S50000x256_1_0_0_1_n_n rfl]

end Cert.ReferenceIdeal.Hand

end
-- ==== Proof.KernelHost.lean ====
/-
  What the kernel's windows find in memory: the host stage of the kernel's program, read back.

  Before the one kernel region the program computes, from the features `x` and the edge lists `src`, `dst`:
  the reciprocal square root of each node's clamped out- and in-degree; the messages `x[src] · s_out[src][:, None]`
  (the source's feature row times the source's factor, both looked up at the same wrapped and clamped row number);
  their sum onto the destinations from a zero array; that sum times the destination's factor; and each bias
  `[256]` reshaped to one row `[1, 256]`. The input window reads the scaled sum; the bias windows read the reshaped biases.
-/
import proofs.«142250_j11940009083129_2_alg».proof.Proof.Gen.KernelIdeal.Frame
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.SL.Sem Idealize.ShloMosaic.StableHlo

section Stages

variable (x0 : FVec Ideal S50000x128 .f32) (x7 x8 : IVec S800000 32)

/-- The zero array the messages are summed into. -/
def zerosK : FVec Ideal S50000x128 .f32 :=
  broadcastInDim S50000x128 ![] bcast_S_S50000x128 (constant (F := Ideal) S_ .f32 0#32)

/-- The destinations as a column of row numbers. -/
def dstK : IVec S800000x1 32 := broadcastInDim S800000x1 ![0] bcast_S800000_S800000x1_0 x8

/-- The sources, negative numbers wrapped once, as a column of row numbers. -/
def srcK : IVec S800000x1 32 :=
  broadcastInDim S800000x1 ![0] bcast_S800000_S800000x1_0
    (select (cmpi CmpIPredicate.slt x7 (broadcastInDim S800000 ![] bcast_S_S800000 (constantI S_ 32 0#32)))
      (addi x7 (broadcastInDim S800000 ![] bcast_S_S800000 (constantI S_ 32 50000#32))) x7)

/-- The reciprocal square root of a degree: the count of edges at each node, clamped below at one. -/
def rsqrtDegK (x : IVec S800000 32) : FVec Ideal S50000 .f32 :=
  Host.rsqrt (maximumf (broadcastInDim S50000 ![] bcast_S_S50000 (id (constant (F := Ideal) S_ .f32 1065353216#32)))
    (Host.scatterAdd scatter_S50000_S800000x1_S800000_n_0_0_1
      (broadcastInDim S50000 ![] bcast_S_S50000 (constant S_ .f32 0#32))
      (broadcastInDim S800000x1 ![0] bcast_S800000_S800000x1_0 x)
      (broadcastInDim S800000 ![] bcast_S_S800000 (constant S_ .f32 1065353216#32))))

/-- The destination's factor spread along the rows. -/
def inFactorK : FVec Ideal S50000x128 .f32 :=
  broadcastInDim S50000x128 ![0, 1] bcast_S50000x1_S50000x128_0_1
    (broadcastInDim S50000x1 ![0] bcast_S50000_S50000x1_0 (rsqrtDegK x8))

/-- The kernel's aggregate: looked-up rows times looked-up factors, summed onto their destinations, times the
    destination's factor. -/
def aggK' : FVec Ideal S50000x128 .f32 :=
  mulf (F := Ideal) (Host.scatterAdd scatter_S50000x128_S800000x1_S800000x128_1_0_0_1 zerosK (dstK x8)
      (mulf (F := Ideal) (Host.gather gather_S50000x128_S800000x1_S800000x128_1_0_n_n_0_1_1128 x0 (srcK x7))
        (broadcastInDim S800000x128 ![0, 1] bcast_S800000x1_S800000x128_0_1
          (broadcastInDim S800000x1 ![0] bcast_S800000_S800000x1_0
            (Host.gather gather_S50000_S800000x1_S800000_n_0_n_n_0_1_1 (rsqrtDegK x7) (srcK x7))))))
    (inFactorK x8)

end Stages

variable (m : (ℓ : Loc nD τ sig) → Buf (Elt Ideal) ℓ)

set_option maxHeartbeats 4000000 in
/-- The array the input window reads is the kernel's aggregate of the argument arrays. -/
theorem V_agg (c : Dev nD) :
    (V m c main_v33 : S50000x128.Idx → EReal)
      = aggK' (m ((c : Thread nD τ).loc main_arg0)) (m ((c : Thread nD τ).loc main_arg7)) (m ((c : Thread nD τ).loc main_arg8)) := by
  dsimp only [V]
  simp only [hostOps0, hostOps0_1, hostOps0_2, hostOps0_3, hostOps0_4,
    List.flatten_cons, List.flatten_nil, List.append_nil, List.cons_append, List.nil_append]
  after_results_simp
  simp only [TRef.toBuf, TRef.ofBuf, cast_eq]
  rfl

set_option maxHeartbeats 4000000 in
/-- The first bias window reads the first bias reshaped to one row. -/
theorem V_b1 (c : Dev nD) :
    (V m c main_v34 : S1x256.Idx → EReal) = shapeCast S1x256 (m ((c : Thread nD τ).loc main_arg2)) shapeCasts_S256_S1x256 := by
  dsimp only [V]
  simp only [hostOps0, hostOps0_1, hostOps0_2, hostOps0_3, hostOps0_4,
    List.flatten_cons, List.flatten_nil, List.append_nil, List.cons_append, List.nil_append]
  after_results_simp
  rfl

set_option maxHeartbeats 4000000 in
/-- The second bias window reads the second bias reshaped to one row. -/
theorem V_b2 (c : Dev nD) :
    (V m c main_v35 : S1x256.Idx → EReal) = shapeCast S1x256 (m ((c : Thread nD τ).loc main_arg4)) shapeCasts_S256_S1x256 := by
  dsimp only [V]
  simp only [hostOps0, hostOps0_1, hostOps0_2, hostOps0_3, hostOps0_4,
    List.flatten_cons, List.flatten_nil, List.append_nil, List.cons_append, List.nil_append]
  after_results_simp
  rfl

set_option maxHeartbeats 4000000 in
/-- The third bias window reads the third bias reshaped to one row. -/
theorem V_b3 (c : Dev nD) :
    (V m c main_v36 : S1x256.Idx → EReal) = shapeCast S1x256 (m ((c : Thread nD τ).loc main_arg6)) shapeCasts_S256_S1x256 := by
  dsimp only [V]
  simp only [hostOps0, hostOps0_1, hostOps0_2, hostOps0_3, hostOps0_4,
    List.flatten_cons, List.flatten_nil, List.append_nil, List.cons_append, List.nil_append]
  after_results_simp
  rfl

end Cert.KernelIdeal.Hand

end
-- ==== Proof.LibRowGatherScatter.lean ====
/-
  A gather of rows and an accumulating scatter of rows, read at an entry.

  `x[rows]` for a matrix `x : [N, C]` and row numbers `rows : [R, 1]` lowers to a gather whose result
  `[R, C]` holds, at `(e, c)`, the entry `(ρ e, c)` of `x`, where `ρ e` is the row number `rows[e, 0]`
  read as a signed integer and clamped into `[0, N − 1]`: the column is kept, the row is looked up.

  `segment_sum(upd, rows)` for updates `upd : [R, C]` lowers to an accumulating scatter into `[N, C]`:
  update `(e, c)` lands on entry `(rows[e, 0], c)` when that row number, read signed and NOT clamped,
  lies in `[0, N)`, and is dropped otherwise. So entry `(v, k)` of the result is the operand's entry plus
  the sum, over the update rows `e` whose row number is `v`, of `upd (e, k)`.
-/
import Idealize.ShloMosaic.Lib.ValueIdx
import Idealize.ShloMosaic.PureOps.Ideal
import Idealize.ShloMosaic.PureOps.Ideal.Laws

noncomputable section

namespace RowOps

open Idealize.ShloMosaic Idealize.ShloMosaic.ValueIdx

/-- The entry `[e, 0]` of a column of `R` row numbers. -/
abbrev col0 {R : Nat} (e : Fin R) : (⟨2, ![R, 1]⟩ : Shape).Idx := ix2 e (⟨0, Nat.one_pos⟩ : Fin 1)

/-! ## Rows gathered -/

section Gather
variable {α : Type}

/-- The dimension numbers of `x[rows]`: operand `[N, C]`, start indices `[R, 1]`, result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of the operand that result row `e` reads: its row number read signed, clamped into `[0, N − 1]`. -/
def gatheredRow {N R w : Nat} (hN : 0 < N) (idx : IVec ⟨2, ![R, 1]⟩ w) (e : Fin R) : Fin N :=
  ⟨min (idx (col0 e)).toInt.toNat (N - 1), by omega⟩

/-- THE ROW GATHER READ AT `(e, c)`: entry `c` of the looked-up row. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (gatheredRow hN idx e) c) := by
  unfold Host.gather
  congr 1
  have h0 : ((rowGatherDims N R C wf).operandIdx (ix2 e c) idx (0 : Fin 2)).val = (gatheredRow hN idx e).val := by
    show (rowGatherDims N R C wf).start (ix2 e c) idx (0 : Fin 2) + (rowGatherDims N R C wf).batchCoord (ix2 e c) (0 : Fin 2)
        + (rowGatherDims N R C wf).offCoord (ix2 e c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = col0 e := by
      funext b; refine Fin.ext ?_
      match b with
      | ⟨0, _⟩ => rfl
      | ⟨1, _⟩ => rfl
    rw [hsi]
    rfl
  have h1 : ((rowGatherDims N R C wf).operandIdx (ix2 e c) idx (1 : Fin 2)).val = c.val := by
    show (rowGatherDims N R C wf).start (ix2 e c) idx (1 : Fin 2) + (rowGatherDims N R C wf).batchCoord (ix2 e c) (1 : Fin 2)
        + (rowGatherDims N R C wf).offCoord (ix2 e c) (1 : Fin 2) = _
    rw [GatherDims.batchCoord_eq_zero _ _ _ List.not_mem_nil, Nat.add_zero]
    have hn : (1 : Fin 2) ∉ (rowGatherDims N R C wf).startIndexMap := fun h =>
      absurd (List.mem_singleton.mp h) (by decide : ¬ (1 : Fin 2) = 0)
    have hk : (1 : Fin 2) ∈ (rowGatherDims N R C wf).sKept :=
      (GatherDims.mem_sKept _ _).mpr ⟨fun h => absurd (List.mem_singleton.mp h) (by decide : ¬ (1 : Fin 2) = 0),
        List.not_mem_nil⟩
    unfold GatherDims.start GatherDims.offCoord
    rw [dif_neg hn, dif_pos hk, Nat.zero_add]
    rfl
  funext a
  refine Fin.ext ?_
  match a with
  | ⟨0, _⟩ => exact h0
  | ⟨1, _⟩ => exact h1

end Gather

/-! ## Rows scattered and accumulated -/

section Scatter

/-- The dimension numbers of `segment_sum` over rows: operand `[N, C]`, scatter indices `[R, 1]`, updates `[R, C]`. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)
  (idx : IVec ⟨2, ![R, 1]⟩ w)

/-- On the row axis the window of update `(e, c)` starts at its row number, read signed. -/
theorem start_row (e : Fin R) (c : Fin C) :
    (rowScatterDims N R C wf).start (ix2 e c) idx (0 : Fin 2) = (idx (col0 e)).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = col0 e := by
    funext b; refine Fin.ext ?_
    match b with
    | ⟨0, _⟩ => rfl
    | ⟨1, _⟩ => rfl
  rw [hsi]

/-- On the column axis it starts at zero. -/
theorem start_col (e : Fin R) (c : Fin C) : (rowScatterDims N R C wf).start (ix2 e c) idx (1 : Fin 2) = 0 := by
  unfold ScatterDims.start
  rw [dif_neg (fun h => absurd (List.mem_singleton.mp h) (by decide : ¬ (1 : Fin 2) = 0))]

/-- The row axis is inserted: the window has no extent there. -/
theorem window_row (e : Fin R) (c : Fin C) : (rowScatterDims N R C wf).window (ix2 e c) (0 : Fin 2) = 0 := by
  unfold ScatterDims.window
  rw [dif_neg]
  intro h
  exact (List.mem_filter.mp h).2 |> fun h' => by simp at h'

/-- On the column axis the window coordinate is the update's column. -/
theorem window_col (e : Fin R) (c : Fin C) : (rowScatterDims N R C wf).window (ix2 e c) (1 : Fin 2) = c.val := by
  unfold ScatterDims.window
  rw [dif_pos (show (1 : Fin 2) ∈ (rowScatterDims N R C wf).sKept from
    List.mem_filter.mpr ⟨List.mem_finRange _, by simp⟩)]
  rfl

/-- WHERE UPDATE `(e, c)` LANDS: on `(v, k)` exactly when its row number is `v` and its column is `k`. -/
theorem resultIdx?_rows (e : Fin R) (c : Fin C) (v : Fin N) (k : Fin C) :
    (rowScatterDims N R C wf).resultIdx? (ix2 e c) idx = some (ix2 v k)
      ↔ (idx (col0 e)).toInt = (v.val : Int) ∧ c = k := by
  have hs0 := start_row wf idx e c
  have hs1 := start_col wf idx e c
  have hw0 := window_row wf e c
  have hw1 := window_col wf e c
  unfold ScatterDims.resultIdx?
  split
  · rename_i h
    rw [Option.some.injEq]
    constructor
    · intro hf
      have h0 := congrArg Fin.val (congrFun hf (0 : Fin 2))
      have h1 := congrArg Fin.val (congrFun hf (1 : Fin 2))
      have hp := (h (0 : Fin 2)).1
      simp only [hs0, hw0, hs1, hw1] at h0 h1 hp
      refine ⟨?_, Fin.ext ?_⟩
      · have : ((idx (col0 e)).toInt + ((0 : Nat) : Int)).toNat = v.val := h0
        omega
      · have : ((0 : Int) + (c.val : Int)).toNat = k.val := h1
        omega
    · rintro ⟨hv, rfl⟩
      funext a
      refine Fin.ext ?_
      match a with
      | ⟨0, _⟩ =>
        show ((rowScatterDims N R C wf).start (ix2 e c) idx (0 : Fin 2)
          + ((rowScatterDims N R C wf).window (ix2 e c) (0 : Fin 2) : Int)).toNat = v.val
        rw [hs0, hw0, hv]; simp
      | ⟨1, _⟩ =>
        show ((rowScatterDims N R C wf).start (ix2 e c) idx (1 : Fin 2)
          + ((rowScatterDims N R C wf).window (ix2 e c) (1 : Fin 2) : Int)).toNat = c.val
        rw [hs1, hw1]; simp
  · rename_i h
    constructor
    · intro hf; cases hf
    · rintro ⟨hv, rfl⟩
      refine (h fun a => ?_).elim
      match a with
      | ⟨0, _⟩ =>
        show 0 ≤ (rowScatterDims N R C wf).start (ix2 e c) idx (0 : Fin 2)
            + ((rowScatterDims N R C wf).window (ix2 e c) (0 : Fin 2) : Int)
          ∧ (rowScatterDims N R C wf).start (ix2 e c) idx (0 : Fin 2)
            + ((rowScatterDims N R C wf).window (ix2 e c) (0 : Fin 2) : Int) < (N : Int)
        rw [hs0, hw0, hv]
        have := v.isLt
        omega
      | ⟨1, _⟩ =>
        show 0 ≤ (rowScatterDims N R C wf).start (ix2 e c) idx (1 : Fin 2)
            + ((rowScatterDims N R C wf).window (ix2 e c) (1 : Fin 2) : Int)
          ∧ (rowScatterDims N R C wf).start (ix2 e c) idx (1 : Fin 2)
            + ((rowScatterDims N R C wf).window (ix2 e c) (1 : Fin 2) : Int) < (C : Int)
        rw [hs1, hw1]
        have := c.isLt
        omega

/-- The update rows whose row number is `v`. -/
def rowsOnto (v : Fin N) : Finset (Fin R) := Finset.univ.filter fun e => (idx (col0 e)).toInt = (v.val : Int)

/-- THE ROW SCATTER READ AT `(v, k)`, at the ideal instance: the operand's entry plus the sum, over the update
    rows whose row number is `v`, of their entry in column `k`. -/
theorem scatterAdd_rows_apply {φ : FTy} (x : FVec Ideal ⟨2, ![N, C]⟩ φ) (upd : FVec Ideal ⟨2, ![R, C]⟩ φ)
    (v : Fin N) (k : Fin C) :
    Host.scatterAdd (rowScatterDims N R C wf) x idx upd (ix2 v k)
      = x (ix2 v k) + ∑ e ∈ rowsOnto idx v, upd (ix2 e k) := by
  show Ideal.hostScatterAdd (rowScatterDims N R C wf) x idx upd (ix2 v k) = _
  unfold Ideal.hostScatterAdd rowsOnto
  congr 1
  rw [Finset.sum_filter, sum_idx2, Finset.sum_filter]
  refine Finset.sum_congr rfl fun e _ => ?_
  simp only [resultIdx?_rows wf idx e _ v k]
  by_cases hv : (idx (col0 e)).toInt = (v.val : Int)
  · simp only [hv, true_and, if_true]
    rw [Finset.sum_ite_eq' Finset.univ k fun c => upd (ix2 e c)]
    simp
  · simp only [hv, false_and, if_false]
    exact Finset.sum_const_zero

end Scatter

end RowOps

end
-- ==== Proof.LibVecGather.lean ====
/-
  A vector looked up by a column of row numbers, and a lookup of scaled rows.

  `s[rows]` for a vector `s : [N]` and row numbers `rows : [R, 1]` lowers to a gather whose result `[R]` holds, at `e`,
  the entry `ρ e` of `s`, where `ρ e` is the row number `rows[e, 0]` read as a signed integer and clamped into
  `[0, N − 1]` — the same row `ρ e` that the row gather `x[rows]` of a matrix `x : [N, C]` reads.

  So scaling and looking up commute: with `s` spread along the rows of `x`,
  `(x · s[:, None])[rows] = x[rows] · s[rows][:, None]`, entry by entry: at `(e, c)` both are `x(ρ e, c) · s(ρ e)`.
  No arithmetic law is used; the two sides are one product.
-/
import proofs.«142250_j11940009083129_2_alg».proof.Proof.LibRowGatherScatter
import proofs.«142250_j11940009083129_2_alg».proof.Proof.LibBroadcastInDim

noncomputable section

namespace RowOps

open Idealize.ShloMosaic Idealize.ShloMosaic.ValueIdx

section VecGather
variable {α : Type}

/-- The dimension numbers of `s[rows]`: operand `[N]`, start indices `[R, 1]`, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the entry of the looked-up row, the row being the one the row gather reads. -/
theorem gather_vec_apply {N R w : Nat} (hN : 0 < N)
    (wf : GatherDims.WF ⟨1, ![N]⟩ ⟨2, ![R, 1]⟩ ⟨1, ![R]⟩ [] [0] [] [0] [] 1 ![1])
    (s : (⟨1, ![N]⟩ : Shape).Idx → α) (idx : IVec ⟨2, ![R, 1]⟩ w) (e : Fin R) :
    Host.gather (vecGatherDims N R wf) s idx (ix1 e) = s (ix1 (gatheredRow hN idx e)) := by
  unfold Host.gather
  congr 1
  funext a
  obtain rfl : a = 0 := Subsingleton.elim _ _
  refine Fin.ext ?_
  show (vecGatherDims N R wf).start (ix1 e) idx 0 + (vecGatherDims N R wf).batchCoord (ix1 e) 0
      + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = col0 e := by
    funext b; refine Fin.ext ?_
    match b with
    | ⟨0, _⟩ => rfl
    | ⟨1, _⟩ => rfl
  rw [hsi]
  rfl

end VecGather

/-- SCALING AND LOOKING UP COMMUTE: the looked-up rows, each times its looked-up factor, are the rows of the scaled
    matrix looked up. At `(e, c)` both sides are `x(ρ e, c) · s(ρ e)` for the one clamped row number `ρ e`. -/
theorem gather_scaled_rows {N R C w : Nat} {φ : FTy} (hN : 0 < N)
    (wfR : GatherDims.WF ⟨2, ![N, C]⟩ ⟨2, ![R, 1]⟩ ⟨2, ![R, C]⟩ [1] [0] [] [0] [] 1 ![1, C])
    (dR : GatherDims ⟨2, ![N, C]⟩ ⟨2, ![R, 1]⟩ ⟨2, ![R, C]⟩) (hdR : dR = rowGatherDims N R C wfR)
    (wfV : GatherDims.WF ⟨1, ![N]⟩ ⟨2, ![R, 1]⟩ ⟨1, ![R]⟩ [] [0] [] [0] [] 1 ![1])
    (dV : GatherDims ⟨1, ![N]⟩ ⟨2, ![R, 1]⟩ ⟨1, ![R]⟩) (hdV : dV = vecGatherDims N R wfV)
    (hN1 : (⟨1, ![N]⟩ : Shape).BroadcastsInDim ⟨2, ![N, 1]⟩ (![0] : Fin 1 → Fin 2))
    (hNC : (⟨2, ![N, 1]⟩ : Shape).BroadcastsInDim ⟨2, ![N, C]⟩ (![0, 1] : Fin 2 → Fin 2))
    (hR1 : (⟨1, ![R]⟩ : Shape).BroadcastsInDim ⟨2, ![R, 1]⟩ (![0] : Fin 1 → Fin 2))
    (hRC : (⟨2, ![R, 1]⟩ : Shape).BroadcastsInDim ⟨2, ![R, C]⟩ (![0, 1] : Fin 2 → Fin 2))
    (x : FVec Ideal ⟨2, ![N, C]⟩ φ) (s : FVec Ideal ⟨1, ![N]⟩ φ) (idx : IVec ⟨2, ![R, 1]⟩ w) :
    mulf (Host.gather dR x idx)
        (broadcastInDim ⟨2, ![R, C]⟩ ![0, 1] hRC (broadcastInDim ⟨2, ![R, 1]⟩ ![0] hR1 (Host.gather dV s idx)))
      = Host.gather dR (mulf x (broadcastInDim ⟨2, ![N, C]⟩ ![0, 1] hNC (broadcastInDim ⟨2, ![N, 1]⟩ ![0] hN1 s))) idx := by
  subst hdR hdV
  funext j
  obtain ⟨e, c, rfl⟩ : ∃ (e : Fin R) (c : Fin C), j = ix2 e c := ⟨j 0, j 1, eq_ix2 j⟩
  rw [mulf_apply, gather_rows_apply hN, gather_rows_apply hN, mulf_apply, broadcastInDim_a1_ab_apply,
    broadcastInDim_a_a1_apply, broadcastInDim_a1_ab_apply, broadcastInDim_a_a1_apply, gather_vec_apply hN]

end RowOps

end
-- ==== Proof.Bridge.lean ====
/-
  The two programs' aggregated features are one array, and the kernel's result is the stack applied to it.

  Both programs compute, on the host, the out- and in-degrees clamped below at one, their reciprocal square roots
  `s_out`, `s_in`, and the aggregate `agg[v, k] = (0 + ∑_{e → v} msg[e, k]) · s_in[v]`, the sum over the edges whose
  destination is `v`. They differ in how a message is formed: the reference scales the feature rows first and then
  looks up the source's row, `msg = (x · s_out[:, None])[src]`; the kernel looks up the source's feature row and the
  source's factor separately and multiplies, `msg = x[src] · s_out[src][:, None]`. Both lookups wrap and clamp the
  same row numbers, so entry `(e, k)` of either is `x(ρ e, k) · s_out(ρ e)` for the one clamped source row `ρ e`: the two
  message arrays are equal, and everything downstream of them is the same operations on the same operands.

  Each stage of the kernel's host program is, by unfolding, the reference's stage of the same name; only the
  messages need the commutation of a row lookup with a per-row scaling.

  The kernel then hands the aggregate, the weights and the biases reshaped `[256] → [1, 256]` to its dense stack; a
  reshaped bias read at `(0, j)` is the bias at `j`.
-/
import proofs.«142250_j11940009083129_2_alg».proof.Proof.KernelHost
import proofs.«142250_j11940009083129_2_alg».proof.Proof.Gen.ReferenceIdeal.Read
import proofs.«142250_j11940009083129_2_alg».proof.Proof.LibVecGather
import proofs.«142250_j11940009083129_2_alg».proof.Proof.KernelBlocks
import Idealize.ShloMosaic.Lib.ValueLayout

noncomputable section

namespace Cert.Bridge

open Idealize.ShloMosaic Idealize.ShloMosaic.TcCoe Idealize.SL.Sem
open Idealize.ShloMosaic.ValueIdx Mlp
open Cert.ReferenceIdeal Cert.ReferenceIdeal.Gen Cert.ReferenceIdeal.Read

variable (x0 : (⟨S50000x128, .f32⟩ : BufTy).Contents (Elt Ideal)) (x7 x8 : (⟨S800000, .i32⟩ : BufTy).Contents (Elt Ideal))

/-! ### Stage by stage, the kernel's spelling is the reference's -/

theorem zerosK_eq : Cert.KernelIdeal.Hand.zerosK = val_main_v20 (F := Ideal) := rfl
theorem dstK_eq : Cert.KernelIdeal.Hand.dstK x8 = val_main_v21 (F := Ideal) x8 := rfl
theorem srcK_eq : Cert.KernelIdeal.Hand.srcK x7 = val_main_v18 (F := Ideal) x7 := rfl
theorem rsqrtDegK_src : Cert.KernelIdeal.Hand.rsqrtDegK x7 = val_main_v9 (F := Ideal) x7 := rfl
theorem inFactorK_eq : Cert.KernelIdeal.Hand.inFactorK x8 = val_main_v25 (F := Ideal) x8 := rfl
theorem scatterRows_eq :
    Cert.KernelIdeal.scatter_S50000x128_S800000x1_S800000x128_1_0_0_1 = scatter_S50000x128_S800000x1_S800000x128_1_0_0_1 := rfl
theorem gatherRows_eq :
    Cert.KernelIdeal.gather_S50000x128_S800000x1_S800000x128_1_0_n_n_0_1_1128 = gather_S50000x128_S800000x1_S800000x128_1_0_n_n_0_1_1128 := rfl

/-! ### The messages -/

/-- The kernel's messages over the reference's stages: the looked-up feature rows, each times its looked-up factor. -/
def msgsK : FVec Ideal S800000x128 .f32 :=
  mulf (F := Ideal) (Host.gather gather_S50000x128_S800000x1_S800000x128_1_0_n_n_0_1_1128 x0 (val_main_v18 (F := Ideal) x7))
    (broadcastInDim S800000x128 ![0, 1] Cert.KernelIdeal.Gen.bcast_S800000x1_S800000x128_0_1
      (broadcastInDim S800000x1 ![0] bcast_S800000_S800000x1_0
        (Host.gather Cert.KernelIdeal.gather_S50000_S800000x1_S800000_n_0_n_n_0_1_1 (val_main_v9 (F := Ideal) x7)
          (val_main_v18 (F := Ideal) x7))))

/-- The kernel's aggregate over the reference's stages. -/
def aggK : FVec Ideal S50000x128 .f32 :=
  mulf (F := Ideal) (Host.scatterAdd scatter_S50000x128_S800000x1_S800000x128_1_0_0_1 (val_main_v20 (F := Ideal))
      (val_main_v21 (F := Ideal) x8) (msgsK x0 x7))
    (val_main_v25 (F := Ideal) x8)

/-- The kernel's aggregate in its own spelling is that. -/
theorem aggK'_eq : Cert.KernelIdeal.Hand.aggK' x0 x7 x8 = aggK x0 x7 x8 := by
  unfold Cert.KernelIdeal.Hand.aggK' aggK msgsK
  rw [zerosK_eq, dstK_eq, srcK_eq, rsqrtDegK_src, inFactorK_eq, scatterRows_eq, gatherRows_eq]

/-- The two message arrays are equal: scaling and looking up commute. -/
theorem msgs_eq : msgsK x0 x7 = val_main_v19 (F := Ideal) x0 x7 :=
  RowOps.gather_scaled_rows (N := 50000) (R := 800000) (C := 128) (by decide)
    gather_S50000x128_S800000x1_S800000x128_1_0_n_n_0_1_1128_wf gather_S50000x128_S800000x1_S800000x128_1_0_n_n_0_1_1128 rfl
    Cert.KernelIdeal.Gen.gather_S50000_S800000x1_S800000_n_0_n_n_0_1_1_wf Cert.KernelIdeal.gather_S50000_S800000x1_S800000_n_0_n_n_0_1_1 rfl
    bcast_S50000_S50000x1_0 bcast_S50000x1_S50000x128_0_1 bcast_S800000_S800000x1_0
    Cert.KernelIdeal.Gen.bcast_S800000x1_S800000x128_0_1 x0 (val_main_v9 (F := Ideal) x7) (val_main_v18 (F := Ideal) x7)

/-- So the two aggregates are equal. -/
theorem agg_eq : aggK x0 x7 x8 = val_main_v26 (F := Ideal) x0 x7 x8 := by
  unfold aggK
  rw [msgs_eq]
  rfl

/-- With the biases given as reshaped vectors, the result function reads them at their entries. -/
theorem outOf_reshaped (A0 : S50000x128.Idx → EReal) (A1 : S128x256.Idx → EReal) (b1 : S256.Idx → EReal)
    (A3 : S256x256.Idx → EReal) (b2 : S256.Idx → EReal) (A5 : S256x256.Idx → EReal) (b3 : S256.Idx → EReal)
    (h : S256.ShapeCasts S1x256) :
    Cert.KernelIdeal.Hand.outOf A0 A1 (shapeCast S1x256 b1 h) A3 (shapeCast S1x256 b2 h) A5 (shapeCast S1x256 b3 h)
      = rows (M := 50000) A0 A1 (fun j => b1 (ix1 j)) A3 (fun j => b2 (ix1 j)) A5 (fun j => b3 (ix1 j)) := by
  unfold Cert.KernelIdeal.Hand.outOf
  simp only [shapeCast_a_1a_apply]

end Cert.Bridge

end
-- ==== Proof.lean ====
/-
  A graph convolution block: aggregate neighbour features with symmetric degree normalisation, then three dense layers
  with SiLU, as a Pallas kernel tiled over rows against the plain jnp reference — equal at the ideal values.

  Both programs compute on the host, by the same operations on the same operands, the clamped out- and in-degrees and
  their reciprocal square roots `s_out`, `s_in`, and
      agg[v, k] = (0 + ∑_{edges e with dst e = v} msg[e, k]) · s_in[v].
  The reference forms the messages as `(x · s_out[:, None])[src]`, the kernel as `x[src] · s_out[src][:, None]`; entry
  `(e, k)` of either is `x(ρ e, k) · s_out(ρ e)` for the one normalised and clamped source row `ρ e`, so the message
  arrays and hence the aggregates are the same array (no arithmetic law is needed, only that a lookup of rows commutes
  with a per-row scaling).

  The reference then applies `silu (h @ W + b)` three times to the whole `[50000, 128]` aggregate. The kernel runs over
  ten blocks of 5000 rows, each point applying the same three layers to its block: matrix products into zero
  accumulators, biases as one-row arrays broadcast over the rows, and the logistic function as one operation where the
  reference writes `1 / (1 + exp (−z))`. On the extended reals the logistic function is that quotient, a matrix product
  into zero is the `dot_general`'s sum, and an output unit of the stack reads a single row of its input; so block `t` of
  the kernel's result is block `t` of the reference's result, and the ten blocks tile the array.

  The precondition (finite inputs) is not used: the two sides are the same expression index by index.
  The three frames: the kernel's two are the generated frame certificates; the reference's is its generated run with the
  result dropped. The idealisation rewrote nothing, so `preserves` is trivial.
-/
import proofs.«142250_j11940009083129_2_alg».proof.Defs
import proofs.«142250_j11940009083129_2_alg».proof.Proof.Gen.Kernel
import proofs.«142250_j11940009083129_2_alg».proof.Proof.Gen.Kernel.Skeleton
import proofs.«142250_j11940009083129_2_alg».proof.Proof.Gen.Kernel.Launch
import proofs.«142250_j11940009083129_2_alg».proof.Proof.Gen.Kernel.Points
import proofs.«142250_j11940009083129_2_alg».proof.Proof.Gen.Kernel.Frame
import proofs.«142250_j11940009083129_2_alg».proof.Proof.Gen.KernelIdeal
import proofs.«142250_j11940009083129_2_alg».proof.Proof.Gen.KernelIdeal.Skeleton
import proofs.«142250_j11940009083129_2_alg».proof.Proof.Gen.KernelIdeal.Launch
import proofs.«142250_j11940009083129_2_alg».proof.Proof.Gen.KernelIdeal.Points
import proofs.«142250_j11940009083129_2_alg».proof.Proof.Gen.KernelIdeal.Frame
import proofs.«142250_j11940009083129_2_alg».proof.Proof.Gen.ReferenceIdeal
import proofs.«142250_j11940009083129_2_alg».proof.Proof.Gen.Pre_finite_inputs
import proofs.«142250_j11940009083129_2_alg».proof.Proof.Gen.KernelIdeal.Value
import proofs.«142250_j11940009083129_2_alg».proof.Proof.Gen.ReferenceIdeal.Run
import proofs.«142250_j11940009083129_2_alg».proof.Proof.Gen.ReferenceIdeal.Read
import proofs.«142250_j11940009083129_2_alg».proof.Proof.KernelValue
import proofs.«142250_j11940009083129_2_alg».proof.Proof.RefValue
import proofs.«142250_j11940009083129_2_alg».proof.Proof.Bridge
import Idealize.ShloMosaic.Adequacy
import Idealize.ShloMosaic.Init

noncomputable section

namespace Cert.Proof

open Idealize.ShloMosaic Idealize.SL.Sem Idealize.ShloMosaic.TcCoe Idealize.ShloMosaic.ValueIdx

/-- Equal arrays give equal result functions. -/
theorem outOf_congr {A0 A0' : Cert.KernelIdeal.S50000x128.Idx → EReal} {A1 A1' : Cert.KernelIdeal.S128x256.Idx → EReal}
    {A2 A2' : Cert.KernelIdeal.S1x256.Idx → EReal} {A3 A3' : Cert.KernelIdeal.S256x256.Idx → EReal} {A4 A4' : Cert.KernelIdeal.S1x256.Idx → EReal}
    {A5 A5' : Cert.KernelIdeal.S256x256.Idx → EReal} {A6 A6' : Cert.KernelIdeal.S1x256.Idx → EReal}
    (h0 : A0 = A0') (h1 : A1 = A1') (h2 : A2 = A2') (h3 : A3 = A3') (h4 : A4 = A4') (h5 : A5 = A5') (h6 : A6 = A6') :
    Cert.KernelIdeal.Hand.outOf A0 A1 A2 A3 A4 A5 A6 = Cert.KernelIdeal.Hand.outOf A0' A1' A2' A3' A4' A5' A6' := by
  subst h0 h1 h2 h3 h4 h5 h6; rfl

/-- The kernel's result, as a function of the argument arrays: the dense stack on the rows of the (common) aggregate. -/
theorem kernel_out (m : (ℓ : Loc Cert.KernelIdeal.nD Cert.KernelIdeal.τ Cert.KernelIdeal.sig) → Buf (Elt Ideal) ℓ) (c : Dev Cert.KernelIdeal.nD) :
    Cert.KernelIdeal.Hand.outArr m c
      = Mlp.rows (M := 50000)
          (Cert.ReferenceIdeal.Read.val_main_v26 (F := Ideal) (m ((c : Thread Cert.KernelIdeal.nD Cert.KernelIdeal.τ).loc Cert.KernelIdeal.main_arg0))
            (m ((c : Thread Cert.KernelIdeal.nD Cert.KernelIdeal.τ).loc Cert.KernelIdeal.main_arg7)) (m ((c : Thread Cert.KernelIdeal.nD Cert.KernelIdeal.τ).loc Cert.KernelIdeal.main_arg8)))
          (m ((c : Thread Cert.KernelIdeal.nD Cert.KernelIdeal.τ).loc Cert.KernelIdeal.main_arg1))
          (fun j => m ((c : Thread Cert.KernelIdeal.nD Cert.KernelIdeal.τ).loc Cert.KernelIdeal.main_arg2) (ix1 j))
          (m ((c : Thread Cert.KernelIdeal.nD Cert.KernelIdeal.τ).loc Cert.KernelIdeal.main_arg3))
          (fun j => m ((c : Thread Cert.KernelIdeal.nD Cert.KernelIdeal.τ).loc Cert.KernelIdeal.main_arg4) (ix1 j))
          (m ((c : Thread Cert.KernelIdeal.nD Cert.KernelIdeal.τ).loc Cert.KernelIdeal.main_arg5))
          (fun j => m ((c : Thread Cert.KernelIdeal.nD Cert.KernelIdeal.τ).loc Cert.KernelIdeal.main_arg6) (ix1 j)) :=
  (outOf_congr ((Cert.KernelIdeal.Hand.V_agg m c).trans ((Cert.Bridge.aggK'_eq _ _ _).trans (Cert.Bridge.agg_eq _ _ _))) (Cert.KernelIdeal.Gen.V_main_arg1 m c) (Cert.KernelIdeal.Hand.V_b1 m c)
      (Cert.KernelIdeal.Gen.V_main_arg3 m c) (Cert.KernelIdeal.Hand.V_b2 m c) (Cert.KernelIdeal.Gen.V_main_arg5 m c) (Cert.KernelIdeal.Hand.V_b3 m c)).trans
    (Cert.Bridge.outOf_reshaped _ _ _ _ _ _ _ _)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the dense stack on the rows of the one aggregate of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8⟩ := hagree c
  rw [Cert.ReferenceIdeal.Read.val_main_v41_eq, Cert.ReferenceIdeal.Hand.result_eq, h0, h1, h2, h3, h4, h5, h6, h7, h8]
  exact (kernel_out m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
